-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S256x10000 : Shape := ⟨2, ![256, 10000]⟩
abbrev S256x128 : Shape := ⟨2, ![256, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S256x10000, .f32⟩
  | .local _ .vmem, ⟨4, _⟩ => ⟨S256x10000, .f32⟩
  | .local _ .vmem, ⟨5, _⟩ => ⟨S256x128, .f32⟩
  | .local _ .vmem, ⟨6, _⟩ => ⟨S256x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S256x10000_S256x10000_0_0 : ∀ a, (![0, 0] : Fin 2 → Nat) a + S256x10000.size a ≤ S256x10000.size a
  h_S256x10000 : 0 < S256x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  dot_S256x10000_S10000x128_S256x128_1_0_0_1_n_n_wf : DotDims.WF S256x10000 S10000x128 S256x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S256x10000.size a < S10000x10000.size a
  hwx0_3 : ∀ i : grid0.Coords, EltTy.bits .f32 = 32 ∨ (Rect.unit (s := S10000x10000) (fun a => cc0_transform_3 i a * S256x10000.size a) (fun a => (Pipeline.Clip.of (cc0_transform_3 i a) (S256x10000.size a) (S10000x10000.size a)).extent (S256x10000.size a)) fun a => Pipeline.Clip.inb (Pipeline.Clip.ok_of (hstart0_3 i a))).WholeWords (EltTy.packing .f32)
  hwxs0_3 : ∀ i : grid0.Coords, EltTy.bits .f32 = 32 ∨ (Rect.unit (s := S256x10000) (fun _ => 0) (fun a => (Pipeline.Clip.of (cc0_transform_3 i a) (S256x10000.size a) (S10000x10000.size a)).extent (S256x10000.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S256x128.size a < S10000x128.size a
  hwx0_4 : ∀ i : grid0.Coords, EltTy.bits .f32 = 32 ∨ (Rect.unit (s := S10000x128) (fun a => cc0_transform_4 i a * S256x128.size a) (fun a => (Pipeline.Clip.of (cc0_transform_4 i a) (S256x128.size a) (S10000x128.size a)).extent (S256x128.size a)) fun a => Pipeline.Clip.inb (Pipeline.Clip.ok_of (hstart0_4 i a))).WholeWords (EltTy.packing .f32)
  hwxs0_4 : ∀ i : grid0.Coords, EltTy.bits .f32 = 32 ∨ (Rect.unit (s := S256x128) (fun _ => 0) (fun a => (Pipeline.Clip.of (cc0_transform_4 i a) (S256x128.size a) (S10000x128.size a)).extent (S256x128.size a)) fun a => (Nat.zero_add _).trans_le (Pipeline.Clip.extent_le (Pipeline.Clip.ok_of (hstart0_4 i a)))).WholeWords (EltTy.packing .f32)

variable [Facts₀]

def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_arg1) S256x10000.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v0) S256x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.PointRunBits.lean ====
/-
  One grid point of the graph-convolution layer. The body reads four buffers whole — the node features `x`
  (10000 × 128), the weights `w` (128 × 128), the bias row `b` (1 × 128) and the current block `a` of 256 rows
  of the adjacency matrix (256 × 10000) — and stores ONE value into the whole output block's buffer:
  `max((a · x) · w + b, 0)`, 256 × 128, the two products taken into zero accumulators. Stated here at any float
  instance: run from those contents (and anything in the output block's buffer) the body ends with the four
  inputs' buffers as they were and the output block's buffer at that value, `pointValue a x w b`.
-/
import proofs.«125061_g75393855914012_cont_9to1_m_802_11_alg».proof.Proof.Gen.Kernel.Frame
import proofs.«125061_g75393855914012_cont_9to1_m_802_11_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The five whole rectangles the body reads and writes through -/

abbrev rectX : Rect S10000x128 := Rect.unit (s := S10000x128) ![0, 0] S10000x128.size inb_S10000x128_S10000x128_0_0
abbrev rectW : Rect S128x128 := Rect.unit (s := S128x128) ![0, 0] S128x128.size inb_S128x128_S128x128_0_0
abbrev rectB : Rect S1x128 := Rect.unit (s := S1x128) ![0, 0] S1x128.size inb_S1x128_S1x128_0_0
abbrev rectA : Rect S256x10000 := Rect.unit (s := S256x10000) ![0, 0] S256x10000.size inb_S256x10000_S256x10000_0_0
abbrev rectO : Rect S256x128 := Rect.unit (s := S256x128) ![0, 0] S256x128.size inb_S256x128_S256x128_0_0

/-- Offset zero on both axes. -/
theorem off_zero : (![0, 0] : Fin 2 → Nat) = fun _ => 0 := funext fun a => by fin_cases a <;> rfl

/-! ## What one point leaves in the output block's buffer -/

/-- The output block after the body: the one store's value over what the four loads read. -/
def pointStored (a : Vec F S256x10000 .f32) (x : Vec F S10000x128 .f32) (w : Vec F S128x128 .f32) (b : Vec F S1x128 .f32) :
    Vec F S256x128 .f32 :=
  View.canon [⟨rectO, k0_pay1 (View.ld a rectA) (View.ld x rectX) (View.ld w rectW) (View.ld b rectB)⟩]

/-- The one store writes the whole block, so it covers it. -/
theorem store_covers (p0 : Vec F S256x128 .f32) (y : S256x128.Idx) :
    ∃ pc ∈ ([⟨rectO, p0⟩] : List (View.Piece (Elt F) S256x128 .f32)), y ∈ pc.1.set :=
  View.cover_of_tiled [⟨rectO, p0⟩] S256x128.size (by rfl) y

/-- Every access is of a whole buffer: the stored value is the layer's formula of the buffers' contents. -/
theorem pointStored_eq (a : Vec F S256x10000 .f32) (x : Vec F S10000x128 .f32) (w : Vec F S128x128 .f32) (b : Vec F S1x128 .f32) :
    pointStored a x w b = k0_pay1 a x w b := by
  unfold pointStored
  rw [View.canon_unit_zero off_zero]
  simp only [View.ld_unit_zero (S := S256x10000) off_zero, View.ld_unit_zero (S := S10000x128) off_zero,
    View.ld_unit_zero (S := S128x128) off_zero, View.ld_unit_zero (S := S1x128) off_zero]

/-! ## The body's run -/

set_option maxHeartbeats 1000000 in
/-- The body on whole buffers: the inputs' at contents `x`, `w`, `b`, `a`, the output block's at anything. It runs to
    the continuation with the inputs' unchanged and the output block's at `pointStored a x w b`. -/
theorem point_run (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S256x10000 .f32) (harg4 : arg4.IsWhole)
    (arg5 : Memref sig .tc .vmem S256x128 .f32) (harg5 : arg5.IsWhole)
    (x : Vec F S10000x128 .f32) (w : Vec F S128x128 .f32) (b : Vec F S1x128 .f32) (a : Vec F S256x10000 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare a ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare a ∗ owns (c : Thread nD τ) arg5 fullShare (pointStored a x w b)) -∗ K ⟨⟩))
      ⊢ wp frame (wpE (defs₀ (F := F)) Variants.none c none) E
          (cc0__gcn_kernel i arg1 harg1 arg2 harg2 arg3 harg3 arg4 harg4 arg5 harg5) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

end Cert.Kernel.Layer

end
-- ==== Proof.FrameBits.lean ====
/-
  The word-level program runs to the end, faults nowhere and leaves its argument arrays as they were.

  The grid has 40 points. At each, the pipeline hands the body the whole feature matrix, the whole weight matrix
  and the bias row (fetched once, found again at every later point) and the point's block of 256 adjacency rows,
  fetched there; the last block overhangs the array's 10000 rows by 240, and what its buffer holds on those rows
  is not determined. The body only reads those four buffers and overwrites the output block's. For the frame
  nothing need be said of what it writes there, so the output window's contents are left unstated: the run's post
  then says of the output array only that its blocks were overwritten, and of every argument array that it holds
  what it held.
-/
import proofs.«125061_g75393855914012_cont_9to1_m_802_11_alg».proof.Proof.PointRunBits
import Idealize.ShloMosaic.Lib.Pipeline.Frame

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each window's buffer holds after the body -/

/-- The adjacency block at point `t` as a full 256-row buffer: the rows inside the array, and the zero word on the
    rows past its end (a filler nothing reads). -/
def adjBlock (c : Dev nD) (t : Fin cfg0.N) : S256x10000.Idx → Elt F .f32 :=
  (cfg0.win 3).fill (cfg0.grid.coords t) (fun _ => Scalar.ofBits .f32 0#32) (iblk m c 3 t)

/-- The arrays as the region finds them; after the body the three whole inputs at their blocks, the adjacency rows
    at `adjBlock`; the output block's buffer is never described (the filler below is not read). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => adjBlock m c t
    | ⟨4, _⟩ => fun _ => Scalar.ofBits .f32 0#32
  Φ _ := Pipeline.ΦA spec0 c
  q _ := fullShare
  owed _ := 0

/-- The output window is the one whose contents are left unstated. -/
abbrev outputOnly : Fin cfg0.W → Bool :=
  fun | 0 => false | 1 => false | 2 => false | 3 => false | 4 => true | ⟨_ + 5, h⟩ => absurd h (Nat.not_lt.2 (Nat.le_add_left _ _))

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_adj (c : Dev nD) (t : Fin cfg0.N) : (dats m 0 c).after 3 t = adjBlock m c t := by dsimp only [dats]

/-! ## What the body finds -/

/-- The three whole inputs are found at their blocks at every point, fetched there or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_b (c : Dev nD) (t : Fin cfg0.N) (d) : (dats m 0 c).before 2 t d = iblk m c 2 t :=
  before0_2_of m (dats m 0 c) (A_eq m c 2) (after_b m c) t d

/-- The adjacency rows are fetched at every point: the buffer holds the block's rows inside the array, and on the
    others whatever it held. -/
theorem before_adj (c : Dev nD) (t : Fin cfg0.N) (d) :
    (dats m 0 c).before 3 t d = (cfg0.win 3).fill (cfg0.grid.coords t) d (iblk m c 3 t) := by
  unfold Dat.before; rw [if_pos (fetch0_3 t)]; rfl

/-! ## The body at a point -/

/-- What the body is called with at point `t`: the four inputs' buffers as found, the output block's at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the whole inputs at their blocks, the adjacency buffer described on the rows inside the
    array only, the output block's buffer at anything. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t))))
    ∗ (∃ X, owns (c : Thread nD τ) (st0_4 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b, before_adj]
  rw [show (dats m 0 c).Φ t.succ = (dats m 0 c).Φ t.castSucc from rfl,
    show (dats m 0 c).owesAt () t.succ = (dats m 0 c).owesAt () t.castSucc from rfl,
    after_x, after_w, after_b, after_adj,
    show (cfg0.win 3).cut (cfg0.grid.coords t) (adjBlock m c t) = iblk m c 3 t from (cfg0.win 3).cut_fill _ _ _]
  iintro ⟨HΦ, Ho, ⟨%d0, H0⟩, ⟨%d1, H1⟩, ⟨%d2, H2⟩, ⟨%d3, H3⟩, ⟨%d4, H4⟩⟩
  iapply (point_run c Set.univ _ _ _ _ _ _ _ _ _ _ _ (iblk m c 0 t) (iblk m c 1 t) (iblk m c 2 t)
    ((cfg0.win 3).fill (cfg0.grid.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexists d3; iexact H3
  iexists _; iexact H4

/-- The library's body obligation at every point, the output window's contents unstated. -/
theorem body_obligation (c : Dev nD) :
    BodyObligationLoose (dats (F := F) m 0 c) (defs₀ (F := F)) Variants.none () Set.univ outputOnly := fun t => by
  rw [bigSep_W0, bigSep_W0]
  exact sound_body m c t

/-! ## The run and the frame -/

set_option backward.isDefEq.respectTransparency.types false in
/-- Every weakly fair execution of @main terminates; every array of the pipeline ends at contents the proof data
    allow, every other unscoped buffer as the region found it. -/
theorem run_main : θ_run defs (onTc (τ := τ) (main (F := F))) (s₀ m ρ)
    (Pipeline.RDat.FramePost cfg0 (fun c => (dats m 0 c).toRForget outputOnly) (V m)) :=
  Pipeline.RDat.θ_run_frame cfgs (0 : Fin 1) launch0 defs₀ Variants.none (fun c => (dats m 0 c).toRForget outputOnly) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- The frame: the three argument arrays the pipeline stages are inputs, never written back, and hold their entry
    contents; the bias array is staged through a reshaped copy and is itself untouched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    have h0 := (congrFun (((dats m 0 c).toRForget outputOnly).ArrAt_in 0 rfl cfg0.N) _).mp ((h c).1 0)
    have h1 := (congrFun (((dats m 0 c).toRForget outputOnly).ArrAt_in 1 rfl cfg0.N) _).mp ((h c).1 1)
    have h3 := (congrFun (((dats m 0 c).toRForget outputOnly).ArrAt_in 3 rfl cfg0.N) _).mp ((h c).1 3)
    exact ⟨h0.trans ((A_eq m c 0).trans (V_main_arg0 m c)), h3.trans ((A_eq m c 3).trans (V_main_arg1 m c)),
      h1.trans ((A_eq m c 1).trans (V_main_arg2 m c)),
      ((h c).2 main_arg3 (Pipeline.mem_restRefs_of main_arg3 (by decide) (by decide))).trans (V_main_arg3 m c)⟩)
    (run_main m ρ)

end Cert.Kernel.Layer

end
-- ==== Proof.PointRunIdeal.lean ====
/-
  One grid point of the graph-convolution layer. The body reads four buffers whole — the node features `x`
  (10000 × 128), the weights `w` (128 × 128), the bias row `b` (1 × 128) and the current block `a` of 256 rows
  of the adjacency matrix (256 × 10000) — and stores ONE value into the whole output block's buffer:
  `max((a · x) · w + b, 0)`, 256 × 128, the two products taken into zero accumulators. Stated here at any float
  instance: run from those contents (and anything in the output block's buffer) the body ends with the four
  inputs' buffers as they were and the output block's buffer at that value, `pointValue a x w b`.
-/
import proofs.«125061_g75393855914012_cont_9to1_m_802_11_alg».proof.Proof.Gen.KernelIdeal.Frame
import proofs.«125061_g75393855914012_cont_9to1_m_802_11_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The five whole rectangles the body reads and writes through -/

abbrev rectX : Rect S10000x128 := Rect.unit (s := S10000x128) ![0, 0] S10000x128.size inb_S10000x128_S10000x128_0_0
abbrev rectW : Rect S128x128 := Rect.unit (s := S128x128) ![0, 0] S128x128.size inb_S128x128_S128x128_0_0
abbrev rectB : Rect S1x128 := Rect.unit (s := S1x128) ![0, 0] S1x128.size inb_S1x128_S1x128_0_0
abbrev rectA : Rect S256x10000 := Rect.unit (s := S256x10000) ![0, 0] S256x10000.size inb_S256x10000_S256x10000_0_0
abbrev rectO : Rect S256x128 := Rect.unit (s := S256x128) ![0, 0] S256x128.size inb_S256x128_S256x128_0_0

/-- Offset zero on both axes. -/
theorem off_zero : (![0, 0] : Fin 2 → Nat) = fun _ => 0 := funext fun a => by fin_cases a <;> rfl

/-! ## What one point leaves in the output block's buffer -/

/-- The output block after the body: the one store's value over what the four loads read. -/
def pointStored (a : Vec F S256x10000 .f32) (x : Vec F S10000x128 .f32) (w : Vec F S128x128 .f32) (b : Vec F S1x128 .f32) :
    Vec F S256x128 .f32 :=
  View.canon [⟨rectO, k0_pay1 (View.ld a rectA) (View.ld x rectX) (View.ld w rectW) (View.ld b rectB)⟩]

/-- The one store writes the whole block, so it covers it. -/
theorem store_covers (p0 : Vec F S256x128 .f32) (y : S256x128.Idx) :
    ∃ pc ∈ ([⟨rectO, p0⟩] : List (View.Piece (Elt F) S256x128 .f32)), y ∈ pc.1.set :=
  View.cover_of_tiled [⟨rectO, p0⟩] S256x128.size (by rfl) y

/-- Every access is of a whole buffer: the stored value is the layer's formula of the buffers' contents. -/
theorem pointStored_eq (a : Vec F S256x10000 .f32) (x : Vec F S10000x128 .f32) (w : Vec F S128x128 .f32) (b : Vec F S1x128 .f32) :
    pointStored a x w b = k0_pay1 a x w b := by
  unfold pointStored
  rw [View.canon_unit_zero off_zero]
  simp only [View.ld_unit_zero (S := S256x10000) off_zero, View.ld_unit_zero (S := S10000x128) off_zero,
    View.ld_unit_zero (S := S128x128) off_zero, View.ld_unit_zero (S := S1x128) off_zero]

/-! ## The body's run -/

set_option maxHeartbeats 1000000 in
/-- The body on whole buffers: the inputs' at contents `x`, `w`, `b`, `a`, the output block's at anything. It runs to
    the continuation with the inputs' unchanged and the output block's at `pointStored a x w b`. -/
theorem point_run (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S256x10000 .f32) (harg4 : arg4.IsWhole)
    (arg5 : Memref sig .tc .vmem S256x128 .f32) (harg5 : arg5.IsWhole)
    (x : Vec F S10000x128 .f32) (w : Vec F S128x128 .f32) (b : Vec F S1x128 .f32) (a : Vec F S256x10000 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare a ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare a ∗ owns (c : Thread nD τ) arg5 fullShare (pointStored a x w b)) -∗ K ⟨⟩))
      ⊢ wp frame (wpE (defs₀ (F := F)) Variants.none c none) E
          (cc0__gcn_kernel i arg1 harg1 arg2 harg2 arg3 harg3 arg4 harg4 arg5 harg5) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

end Cert.KernelIdeal.Layer

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«125061_g75393855914012_cont_9to1_m_802_11_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.GcnLayer.lean ====
/-
  The graph-convolution layer on the extended reals.

  The reference forms  max(A · (X · W) + b, 0)  on the whole arrays; the kernel, one block of adjacency rows at a
  time, forms  max((A_blk · X) · W + b, 0).  Two facts join them: a row of a matrix product depends on the left
  factor through that one row only, so the kernel's block result at a row is the whole-array expression at the
  array's row it holds; and the product of three matrices of REAL entries is associative.
-/
import proofs.«125061_g75393855914012_cont_9to1_m_802_11_alg».proof.Proof.LibMatAssoc

noncomputable section

open scoped BigOperators

namespace Cert.Gcn

open Cert.Dense Idealize.ShloMosaic Idealize.ShloMosaic.ValueIdx

variable {M K L N : ℕ}

/-! ## The layer -/

/-- The layer as the reference arranges it: features times weights first, then the adjacency product, the bias of
    the entry's column, the rectifier. -/
def layer (X : Mat M K) (A : Mat M M) (W : Mat K N) (b : Row N) : Mat M N := relu (affine A (mm X W) b)

/-- What the kernel forms from a block of `B` adjacency rows: the block times the features first, then the
    weights, the bias kept as a one-row matrix, the rectifier. -/
def blockLayer {B : ℕ} (Ablk : Mat B M) (X : Mat M K) (W : Mat K N) (b2 : Mat 1 N) : Mat B N := relu (affine2 (mm Ablk X) W b2)

/-- Row `p` of the block's result depends on the block through its row `p` only. -/
theorem blockLayer_congr_row {B : ℕ} (Ablk Ablk' : Mat B M) (X : Mat M K) (W : Mat K N) (b2 : Mat 1 N) (p : Fin B)
    (h : ∀ k, Ablk (ix2 p k) = Ablk' (ix2 p k)) (q : Fin N) :
    blockLayer Ablk X W b2 (ix2 p q) = blockLayer Ablk' X W b2 (ix2 p q) := by
  show max (mm (mm Ablk X) W (ix2 p q) + b2 (ix2 (0 : Fin 1) q)) 0 = max (mm (mm Ablk' X) W (ix2 p q) + b2 (ix2 (0 : Fin 1) q)) 0
  rw [mm_row (mm Ablk' X) (mm Ablk X) W p p (fun k => mm_row Ablk' Ablk X p p h k) q]

/-- Where row `p` of the block is row `r` of the adjacency matrix, and every entry of the three matrices is real, the
    block's result at row `p` is the layer at row `r`. -/
theorem blockLayer_row {B : ℕ} (A : Mat M M) (Ablk : Mat B M) (X : Mat M K) (W : Mat K N) (b : Row N) (b2 : Mat 1 N)
    (hA : Finite A) (hX : Finite X) (hW : Finite W) (hb : ∀ q : Fin N, b2 (ix2 (0 : Fin 1) q) = b (ix1 q))
    (p : Fin B) (r : Fin M) (h : ∀ k, Ablk (ix2 p k) = A (ix2 r k)) (q : Fin N) :
    blockLayer Ablk X W b2 (ix2 p q) = layer X A W b (ix2 r q) := by
  show max (mm (mm Ablk X) W (ix2 p q) + b2 (ix2 (0 : Fin 1) q)) 0 = max (mm A (mm X W) (ix2 r q) + b (ix1 q)) 0
  rw [mm_row (mm A X) (mm Ablk X) W p r (fun k => mm_row A Ablk X p r h k) q, mm_assoc A X W hA hX hW, hb]

end Cert.Gcn

end
-- ==== Proof.PointValue.lean ====
/-
  The value one grid point stores, read on the extended reals: the vector unit's two matrix products into zero
  accumulators are plain products, the bias row is broadcast over the 256 rows, and the maximum with the zero word
  is the rectifier — the block's layer `max((A_blk · X) · W + b, 0)` of the spec, with the bias as a one-row matrix.
-/
import proofs.«125061_g75393855914012_cont_9to1_m_802_11_alg».proof.Proof.Gen.KernelIdeal.Skeleton
import proofs.«125061_g75393855914012_cont_9to1_m_802_11_alg».proof.Proof.GcnLayer

noncomputable section

namespace Cert.KernelIdeal.Layer

open Cert.KernelIdeal Cert.KernelIdeal.Gen
open Cert.Dense Cert.Gcn Idealize.ShloMosaic Idealize.ShloMosaic.ValueIdx

/-- The stored value at the ideal instance is the block's layer. -/
theorem pointValue_eq (a : Vec Ideal S256x10000 .f32) (x : Vec Ideal S10000x128 .f32) (w : Vec Ideal S128x128 .f32) (b : Vec Ideal S1x128 .f32) :
    k0_pay1 (F := Ideal) a x w b = blockLayer (B := 256) (M := 10000) (K := 128) (N := 128) a x w b := by
  unfold k0_pay1 blockLayer
  show maximumf (addf (matmul (DotDims.plain 256 128 128) none
        (matmul (DotDims.plain 256 10000 128) none a x (constant (F := Ideal) ⟨2, ![256, 128]⟩ .f32 0x00000000#32)) w
        (constant (F := Ideal) ⟨2, ![256, 128]⟩ .f32 0x00000000#32))
      (broadcastTo S256x128 (shapeCast S1x128 b shapeCasts_S1x128_S1x128) broadcasts_S1x128_S256x128))
      (broadcast S256x128 (Scalar.ofBits (F := Ideal) .f32 0x00000000#32)) = _
  rw [shapeCast_self, matmul_plain_zero none a x, addf_matmul_broadcastTo none (mm a x) w b, maximumf_splat_zero]

end Cert.KernelIdeal.Layer

end
-- ==== Proof.RunIdeal.lean ====
/-
  The idealized program's run, with what the output array ends holding.

  As at the word level the body is handed the whole features, weights and bias and the point's block of adjacency
  rows. Here the output block is described too. The last adjacency block overhangs the array, and the buffer's
  rows past the array's end hold anything; but row `p` of what the body stores depends on the adjacency buffer
  through its row `p` only, so on the rows the write-back moves — those inside the array — the stored block is the
  same whatever the tail holds. That is all the pipeline needs of a block that overhangs: the proof data name the
  stored block computed from the adjacency rows filled out with zeros, and the body's actual result agrees with it
  on every row written back.
-/
import proofs.«125061_g75393855914012_cont_9to1_m_802_11_alg».proof.Proof.PointRunIdeal
import proofs.«125061_g75393855914012_cont_9to1_m_802_11_alg».proof.Proof.PointValue
import Idealize.ShloMosaic.Lib.Pipeline.Frame

set_option maxRecDepth 16384

noncomputable section

namespace Cert.KernelIdeal.Layer

open Cert.KernelIdeal Cert.KernelIdeal.Gen
open Cert.Dense Cert.Gcn
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The two clipped windows cut alike -/

/-- The adjacency block spans all 10000 columns at every point. -/
theorem adj_cols (t : Fin cfg0.N) : (cfg0.win 3).xsize (cfg0.grid.coords t) 1 = 10000 :=
  (by decide +kernel : ∀ t : Fin grid0.N, win0_3.xsize (grid0.coords t) 1 = 10000) t

/-- The adjacency block and the output block keep the same number of rows at every point. -/
theorem rows_alike (t : Fin cfg0.N) : (cfg0.win 3).xsize (cfg0.grid.coords t) 0 = (cfg0.win 4).xsize (cfg0.grid.coords t) 0 :=
  (by decide +kernel : ∀ t : Fin grid0.N, win0_3.xsize (grid0.coords t) 0 = win0_4.xsize (grid0.coords t) 0) t

/-- An entry of the adjacency buffer on a row the output's write-back moves is one its fetch moved. -/
theorem adj_moved (t : Fin cfg0.N) (p : Fin 256) (k : Fin 10000) (hp : p.val < (cfg0.win 4).xsize (cfg0.grid.coords t) 0) :
    (cfg0.win 3).moved (cfg0.grid.coords t) (ix2 p k : S256x10000.Idx) = true :=
  ((cfg0.win 3).moved_iff _ _).mpr fun a => by
    match a with
    | ⟨0, _⟩ => show p.val < (cfg0.win 3).xsize (cfg0.grid.coords t) 0; rw [rows_alike]; exact hp
    | ⟨1, _⟩ => show k.val < (cfg0.win 3).xsize (cfg0.grid.coords t) 1; rw [adj_cols]; exact k.isLt

/-- Where the fetch moved an entry, the buffer holds the fetched entry whatever it held before. -/
theorem adj_fill_congr (t : Fin cfg0.N) (d d' : S256x10000.Idx → Elt Ideal .f32)
    (g : ((cfg0.win 3).xblock (cfg0.grid.coords t)).Idx → Elt Ideal .f32) (j : S256x10000.Idx)
    (h : (cfg0.win 3).moved (cfg0.grid.coords t) j = true) :
    (cfg0.win 3).fill (cfg0.grid.coords t) d g j = (cfg0.win 3).fill (cfg0.grid.coords t) d' g j := by
  unfold Window.fill; rw [dif_pos h, dif_pos h]

/-! ## Rows of the stored block -/

/-- Two adjacency buffers that agree on row `y 0` give the same stored entry at `y`. -/
theorem stored_congr_row (a a' : Vec Ideal S256x10000 .f32) (x : Vec Ideal S10000x128 .f32) (w : Vec Ideal S128x128 .f32)
    (b : Vec Ideal S1x128 .f32) (y : S256x128.Idx)
    (h : ∀ k : Fin 10000, a (ix2 (y 0 : Fin 256) k : S256x10000.Idx) = a' (ix2 (y 0 : Fin 256) k : S256x10000.Idx)) :
    pointStored a x w b y = pointStored a' x w b y := by
  rw [pointStored_eq, pointStored_eq, pointValue_eq, pointValue_eq, eq_ix2 y]
  exact blockLayer_congr_row a a' x w b (y 0) h (y 1)

/-! ## What each window's buffer holds after the body -/

/-- The adjacency block at point `t` as a full 256-row buffer: the rows inside the array, zeros past its end. -/
def adjBlock (c : Dev nD) (t : Fin cfg0.N) : S256x10000.Idx → Elt Ideal .f32 :=
  (cfg0.win 3).fill (cfg0.grid.coords t) (fun _ => Scalar.ofBits (F := Ideal) .f32 0#32) (iblk m c 3 t)

/-- The block the body stores when the adjacency buffer is `adjBlock`. -/
def outBlock (c : Dev nD) (t : Fin cfg0.N) : S256x128.Idx → Elt Ideal .f32 :=
  pointStored (adjBlock m c t) (iblk m c 0 t) (iblk m c 1 t) (iblk m c 2 t)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => adjBlock m c t
    | ⟨4, _⟩ => outBlock m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_adj (c : Dev nD) (t : Fin cfg0.N) : (dats m 0 c).after 3 t = adjBlock m c t := by dsimp only [dats]
theorem after_out (c : Dev nD) (t : Fin cfg0.N) : (dats m 0 c).after 4 t = outBlock m c t := by dsimp only [dats]

/-- On the rows the write-back moves, what the body stores from the adjacency buffer as fetched — anything `d` on
    its tail — is the named block. -/
theorem stored_cut (c : Dev nD) (t : Fin cfg0.N) (d : S256x10000.Idx → Elt Ideal .f32) :
    (cfg0.win 4).cut (cfg0.grid.coords t)
        (pointStored ((cfg0.win 3).fill (cfg0.grid.coords t) d (iblk m c 3 t)) (iblk m c 0 t) (iblk m c 1 t) (iblk m c 2 t))
      = (cfg0.win 4).cut (cfg0.grid.coords t) (outBlock m c t) := by
  funext j
  show pointStored _ _ _ _ ((cfg0.win 4).xinj (cfg0.grid.coords t) j) = outBlock m c t ((cfg0.win 4).xinj (cfg0.grid.coords t) j)
  unfold outBlock adjBlock
  refine stored_congr_row _ _ _ _ _ _ fun k => ?_
  exact adj_fill_congr t _ _ _ _ (adj_moved t _ k (j 0).isLt)

/-! ## What the body finds -/

theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_b (c : Dev nD) (t : Fin cfg0.N) (d) : (dats m 0 c).before 2 t d = iblk m c 2 t :=
  before0_2_of m (dats m 0 c) (A_eq m c 2) (after_b m c) t d
theorem before_adj (c : Dev nD) (t : Fin cfg0.N) (d) :
    (dats m 0 c).before 3 t d = (cfg0.win 3).fill (cfg0.grid.coords t) d (iblk m c 3 t) := by
  unfold Dat.before; rw [if_pos (fetch0_3 t)]; rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- The two clipped windows' buffers are described on the rows their transfers move only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t))))
    ∗ (∃ d, owns (c : Thread nD τ) (st0_4 t) fullShare
        ((cfg0.win 4).fill (cfg0.grid.coords t) d ((cfg0.win 4).cut (cfg0.grid.coords t) ((dats m 0 c).after 4 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_x, before_w, before_b, before_adj]
  rw [show (dats m 0 c).Φ t.succ = (dats m 0 c).Φ t.castSucc from rfl,
    show (dats m 0 c).owesAt () t.succ = (dats m 0 c).owesAt () t.castSucc from rfl,
    after_x, after_w, after_b, after_adj, after_out,
    show (cfg0.win 3).cut (cfg0.grid.coords t) (adjBlock m c t) = iblk m c 3 t from (cfg0.win 3).cut_fill _ _ _]
  iintro ⟨HΦ, Ho, ⟨%d0, H0⟩, ⟨%d1, H1⟩, ⟨%d2, H2⟩, ⟨%d3, H3⟩, ⟨%d4, H4⟩⟩
  iapply (point_run c Set.univ _ _ _ _ _ _ _ _ _ _ _ (iblk m c 0 t) (iblk m c 1 t) (iblk m c 2 t)
    ((cfg0.win 3).fill (cfg0.grid.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexists d3; iexact H3
  iexists (pointStored ((cfg0.win 3).fill (cfg0.grid.coords t) d3 (iblk m c 3 t)) (iblk m c 0 t) (iblk m c 1 t) (iblk m c 2 t))
  rw [← stored_cut m c t d3, (cfg0.win 4).fill_cut]
  iexact H4

theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates with every array of the pipeline at what the proof data
    compute and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Layer

end
-- ==== Proof.FinalIdeal.lean ====
/-
  What the output array ends holding: the layer of the four arguments.

  Point `t` writes back the rows of its stored block that lie inside the array: rows 256·t … 256·t + 255, and for the
  last point, t = 39, rows 9984 … 9999 only. On such a row the adjacency buffer holds the array's row, the features
  and weights are the whole arrays at every point, and the bias row is the bias vector reshaped; so, the entries
  being real, the stored row is the layer's row (the product regrouped). The forty blocks' rows inside the array
  are all 10000 rows, each covered by the point `row / 256`, so the array ends holding the layer everywhere.
-/
import proofs.«125061_g75393855914012_cont_9to1_m_802_11_alg».proof.Proof.RunIdeal
import Idealize.ShloMosaic.Lib.StableHlo.Run
import Idealize.ShloMosaic.Lib.Pipeline.Value
import Idealize.ShloMosaic.Lib.ValueLayout

set_option maxRecDepth 16384

noncomputable section

namespace Cert.KernelIdeal.Layer

open Cert.KernelIdeal Cert.KernelIdeal.Gen
open Cert.Dense Cert.Gcn
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg)

/-- The layer of the argument arrays as launched, on core `c`. -/
def layerOf (c : Dev nD) : S10000x128.Idx → EReal :=
  layer (M := 10000) (K := 128) (N := 128) (m ((c : Thread nD τ).loc main_arg0)) (m ((c : Thread nD τ).loc main_arg1))
    (m ((c : Thread nD τ).loc main_arg2)) (m ((c : Thread nD τ).loc main_arg3))

/-! ## The index maps and the cuts, decided over the forty points -/

theorem point_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_4.xsize (grid0.coords t) (0 : Fin 2) = (if t.val = 39 then 16 else 256)
    ∧ win0_4.xsize (grid0.coords t) (1 : Fin 2) = 128 :=
  (by decide +kernel : ∀ t : Fin grid0.N, _)

/-- A row the write-back at point `t` moves is a row of the array. -/
theorem row_in_array (t : Fin cfg0.N) (p : Nat) (hp : p < (cfg0.win 4).xsize (cfg0.grid.coords t) 0) : t.val * 256 + p < 10000 := by
  obtain ⟨-, -, -, -, -, -, -, -, -, -, e, -⟩ := point_facts t
  have ht : t.val < 40 := lt_of_lt_of_eq t.isLt (N_0 : cfg0.N = 40)
  have hp' : p < (if t.val = 39 then 16 else 256) := by rw [← e]; exact hp
  split at hp' <;> omega

/-! ## The blocks the body reads -/

/-- The features' block is the whole array, at every point. -/
theorem x_whole (c : Dev nD) (t : Fin cfg0.N) : (iblk m c 0 t : S10000x128.Idx → EReal) = m ((c : Thread nD τ).loc main_arg0) := by
  obtain ⟨e0, e1, -⟩ := point_facts t
  funext y
  show V m c main_arg0 (((cfg0.win 0).blk t).view.emb y) = _
  rw [V_main_arg0]
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- So is the weights'. -/
theorem w_whole (c : Dev nD) (t : Fin cfg0.N) : (iblk m c 1 t : S128x128.Idx → EReal) = m ((c : Thread nD τ).loc main_arg2) := by
  obtain ⟨-, -, e0, e1, -⟩ := point_facts t
  funext y
  show V m c main_arg2 (((cfg0.win 1).blk t).view.emb y) = _
  rw [V_main_arg2]
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The one-row bias array the region finds is the bias vector reshaped. -/
theorem bias_array (c : Dev nD) : (V m c main_call0_v0 : S1x128.Idx → EReal)
    = shapeCast S1x128 (m ((c : Thread nD τ).loc main_arg3)) shapeCasts_S128_S1x128 := by
  dsimp only [Gen.V, Gen.hostOps0]; after_results; rfl

/-- The bias block at column `q` is the bias vector's entry `q`. -/
theorem bias_entry (c : Dev nD) (t : Fin cfg0.N) (q : Fin 128) :
    (iblk m c 2 t : S1x128.Idx → EReal) (ix2 (0 : Fin 1) q) = m ((c : Thread nD τ).loc main_arg3) (ix1 q) := by
  obtain ⟨-, -, -, -, e0, e1, -⟩ := point_facts t
  show V m c main_call0_v0 (((cfg0.win 2).blk t).view.emb (ix2 (0 : Fin 1) q)) = _
  have he : ((cfg0.win 2).blk t).view.emb (ix2 (0 : Fin 1) q : S1x128.Idx) = (ix2 (0 : Fin 1) q : S1x128.Idx) :=
    funext fun a => Fin.ext (by
      match a with
      | ⟨0, _⟩ => show win0_2.index t (0 : Fin 2) * 1 + 1 * 0 = 0; omega
      | ⟨1, _⟩ => show win0_2.index t (1 : Fin 2) * 128 + 1 * q.val = q.val; omega)
  rw [he, bias_array]
  exact shapeCast_a_1a_apply _ _ (0 : Fin 1) q

/-- On a row the write-back moves, the adjacency buffer holds the array's row `256·t + p`. -/
theorem adj_row (c : Dev nD) (t : Fin cfg0.N) (p : Fin 256) (hp : p.val < (cfg0.win 4).xsize (cfg0.grid.coords t) 0) (k : Fin 10000) :
    adjBlock m c t (ix2 p k : S256x10000.Idx)
      = m ((c : Thread nD τ).loc main_arg1) (ix2 (⟨t.val * 256 + p.val, row_in_array t p.val hp⟩ : Fin 10000) k : S10000x10000.Idx) := by
  obtain ⟨-, -, -, -, -, -, e0, e1, -⟩ := point_facts t
  unfold adjBlock Window.fill
  rw [dif_pos (adj_moved t p k hp)]
  show V m c main_arg1 (((cfg0.win 3).blk t).view.emb _) = _
  rw [V_main_arg1]
  refine congrArg _ (funext fun a => Fin.ext ?_)
  match a with
  | ⟨0, _⟩ => show win0_3.index t (0 : Fin 2) * 256 + 1 * p.val = t.val * 256 + p.val; omega
  | ⟨1, _⟩ => show win0_3.index t (1 : Fin 2) * 10000 + 1 * k.val = k.val; omega

/-! ## What a point writes back -/

/-- WHAT POINT `t` WRITES BACK is block `t` of the layer, cut at the array's end. -/
theorem flushed_eq (c : Dev nD)
    (hfin : Finite (m ((c : Thread nD τ).loc main_arg0)) ∧ Finite (m ((c : Thread nD τ).loc main_arg1)) ∧ Finite (m ((c : Thread nD τ).loc main_arg2)))
    (t : Fin cfg0.N) :
    (dats m 0 c).flushed 4 t = ((cfg0.win 4).blk t).view.read (Elt Ideal) (layerOf m c) := by
  show (cfg0.win 4).cut (grid0.coords t) ((dats m 0 c).after 4 t) = _
  rw [after_out]
  obtain ⟨-, -, -, -, -, -, -, -, e0, e1, -, -⟩ := point_facts t
  funext j
  have hp : (j 0).val < (cfg0.win 4).xsize (cfg0.grid.coords t) 0 := (j 0).isLt
  have hemb : ((cfg0.win 4).blk t).view.emb j
      = (ix2 (⟨t.val * 256 + (j 0).val, row_in_array t (j 0).val hp⟩ : Fin 10000) (⟨(j 1).val, Nat.lt_of_lt_of_le (j 1).isLt ((cfg0.win 4).xsize_le (cfg0.grid.coords t) 1)⟩ : Fin 128) : S10000x128.Idx) :=
    funext fun a => Fin.ext (by
      match a with
      | ⟨0, _⟩ => show win0_4.index t (0 : Fin 2) * 256 + 1 * (j 0).val = t.val * 256 + (j 0).val; omega
      | ⟨1, _⟩ => show win0_4.index t (1 : Fin 2) * 128 + 1 * (j 1).val = (j 1).val; omega)
  show outBlock m c t ((cfg0.win 4).xinj (grid0.coords t) j) = layerOf m c (((cfg0.win 4).blk t).view.emb j)
  rw [hemb]
  unfold outBlock layerOf
  rw [pointStored_eq, pointValue_eq, x_whole, w_whole, eq_ix2 ((cfg0.win 4).xinj (grid0.coords t) j)]
  exact blockLayer_row (m ((c : Thread nD τ).loc main_arg1)) (adjBlock m c t) (m ((c : Thread nD τ).loc main_arg0))
    (m ((c : Thread nD τ).loc main_arg2)) (m ((c : Thread nD τ).loc main_arg3)) (iblk m c 2 t)
    hfin.2.1 hfin.1 hfin.2.2 (bias_entry m c t) _ _ (fun k => adj_row m c t _ hp k) _

/-! ## The forty blocks cover the array -/

/-- An index of the array is in point `t`'s block iff each coordinate is in the block's range on its axis, the
    range cut at the array's end. -/
theorem mem_blk (t : Fin cfg0.N) (i : S10000x128.Idx) :
    i ∈ ((cfg0.win 4).blk t).view.set ↔ ∀ a : Fin 2, win0_4.index t a * S256x128.size a ≤ (i a).val
      ∧ (i a).val < win0_4.index t a * S256x128.size a + win0_4.xsize (grid0.coords t) a := by
  show i ∈ ((View.whole main_v0).slice (win0_4.rect t)).set ↔ _
  rw [View.set_slice_whole, Rect.mem_set_unit]
  exact Iff.rfl

/-- Row `r` is in the block of the point `r / 256`. -/
theorem covered (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : (i 0).val / 256 < cfg0.N := lt_of_lt_of_eq (by omega : (i 0).val / 256 < 40) (N_0 : cfg0.N = 40).symm
  refine ⟨⟨(i 0).val / 256, hN⟩, flush0_4 _, ?_⟩
  rw [mem_blk]
  obtain ⟨-, -, -, -, -, -, -, -, e0, e1, e2, e3⟩ := point_facts ⟨(i 0).val / 256, hN⟩
  intro a
  match a with
  | ⟨0, _⟩ =>
    show win0_4.index ⟨(i 0).val / 256, hN⟩ (0 : Fin 2) * 256 ≤ (i 0).val
      ∧ (i 0).val < win0_4.index ⟨(i 0).val / 256, hN⟩ (0 : Fin 2) * 256 + win0_4.xsize (grid0.coords ⟨(i 0).val / 256, hN⟩) (0 : Fin 2)
    rw [e0, e2]
    show (i 0).val / 256 * 256 ≤ (i 0).val ∧ (i 0).val < (i 0).val / 256 * 256 + (if (i 0).val / 256 = 39 then 16 else 256)
    split <;> omega
  | ⟨1, _⟩ =>
    show win0_4.index ⟨(i 0).val / 256, hN⟩ (1 : Fin 2) * 128 ≤ (i 1).val
      ∧ (i 1).val < win0_4.index ⟨(i 0).val / 256, hN⟩ (1 : Fin 2) * 128 + win0_4.xsize (grid0.coords ⟨(i 0).val / 256, hN⟩) (1 : Fin 2)
    rw [e1, e3]; omega

/-- THE OUTPUT ARRAY after the run is the layer of the arguments. -/
theorem final (c : Dev nD)
    (hfin : Finite (m ((c : Thread nD τ).loc main_arg0)) ∧ Finite (m ((c : Thread nD τ).loc main_arg1)) ∧ Finite (m ((c : Thread nD τ).loc main_arg2))) :
    (dats m 0 c).arrAt 4 cfg0.N = layerOf m c :=
  (dats m 0 c).arrAt_eq_of_cover 4 (layerOf m c) (fun t _ => flushed_eq m c hfin t) covered

/-! ## The run, read -/

/-- From a memory whose features, adjacency matrix and weights are finite on every core: every weakly fair execution
    terminates with the result array at the layer of the arguments and the arguments unchanged. -/
theorem run
    (hfin : ∀ c : Dev nD, Finite (m ((c : Thread nD τ).loc main_arg0)) ∧ Finite (m ((c : Thread nD τ).loc main_arg1)) ∧ Finite (m ((c : Thread nD τ).loc main_arg2))) :
    θ_run defs (onTc (τ := τ) (main (F := Ideal))) ⟨m, fun _ => 0, ρ⟩ fun r => ∀ c : Dev nD,
      r.2.mem ((c.tc : Thread nD τ).loc main_v0) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final m c (hfin c)),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ)

end Cert.KernelIdeal.Layer

end
-- ==== Proof.RefLayer.lean ====
/-
  The reference on the extended reals: two host matrix products, features by weights and then adjacency by that,
  the bias broadcast to one row and then over the 10000 rows, and the maximum with a broadcast zero — the layer
  `max(A · (X · W) + b, 0)` of the spec.
-/
import proofs.«125061_g75393855914012_cont_9to1_m_802_11_alg».proof.Proof.Gen.ReferenceIdeal.Read
import proofs.«125061_g75393855914012_cont_9to1_m_802_11_alg».proof.Proof.GcnLayer

noncomputable section

namespace Cert.ReferenceIdeal.Layer

open Cert.ReferenceIdeal Cert.ReferenceIdeal.Gen
open Cert.Dense Cert.Gcn Idealize.ShloMosaic Idealize.ShloMosaic.ValueIdx

/-- The term the reference's run ends with is the layer of the four arguments. -/
theorem result_eq (x : FVec Ideal S10000x128 .f32) (a : FVec Ideal S10000x10000 .f32) (w : FVec Ideal S128x128 .f32) (b : FVec Ideal S128 .f32) :
    maximumf (addf (Host.dotGeneral dot_S10000x10000_S10000x128_S10000x128_1_0_0_1_n_n none a
          (Host.dotGeneral dot_S10000x128_S128x128_S10000x128_1_0_0_1_n_n none x w))
        (broadcastInDim S10000x128 ![0, 1] bcast_S1x128_S10000x128_0_1 (broadcastInDim S1x128 ![1] bcast_S128_S1x128_1 b)))
      (broadcastInDim S10000x128 ![] bcast_S_S10000x128 (constant (F := Ideal) S_ .f32 0x00000000#32))
      = layer (M := 10000) (K := 128) (N := 128) x a w b := by
  unfold layer
  show maximumf (addf (Host.dotGeneral (F := Ideal) (DotDims.plain 10000 10000 128) none a
          (Host.dotGeneral (F := Ideal) (DotDims.plain 10000 128 128) none x w))
        (broadcastInDim S10000x128 ![0, 1] bcast_S1x128_S10000x128_0_1 (broadcastInDim S1x128 ![1] bcast_S128_S1x128_1 b)))
      (broadcastInDim S10000x128 ![] bcast_S_S10000x128 (constant (F := Ideal) S_ .f32 0x00000000#32)) = _
  rw [dotGeneral_plain x w, addf_dotGeneral_broadcastInDim a (mm x w) b, maximumf_broadcastInDim_zero]

end Cert.ReferenceIdeal.Layer

end
-- ==== Proof.LibFinite.lean ====
/-
  "Every entry is finite", decoded.

  A precondition states it of an array as the conjunction over the array of the test |x| < +∞, the bound being the
  f32 word of +∞. An extended real whose absolute value is below +∞ is neither infinity, so it is a real; and a
  conjunction over an array that holds is every one of its terms.
-/
import proofs.«125061_g75393855914012_cont_9to1_m_802_11_alg».proof.Proof.LibMatAssoc
import Idealize.ShloMosaic.Lib.ReduceAll
import Idealize.ShloMosaic.Lib.Affine

noncomputable section

namespace Cert.Gcn

open Idealize.ShloMosaic Idealize.ShloMosaic.ValueIdx

/-- An extended real with |x| < +∞ (the test the precondition makes, against the f32 word of +∞) is a real. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- One input's conjunct: the test holds at every index, so every entry is real. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : Finite x := by
  intro i
  have hi := Host.reduce_andi_all _ _ hr hu ix0 e i
  have hi' : Ideal.cmp .olt (max (x i) (-(x i)))
      (broadcastInDim s ![] hb (constant (F := Ideal) ⟨0, ![]⟩ .f32 0x7F800000#32) i) = 1#1 := hi
  rw [broadcastInDim_apply ![] hb _ i ix0 (fun ax => ax.elim0)] at hi'
  exact real_of_abs_lt_inf (x i) hi'

end Cert.Gcn

end
-- ==== Proof.FiniteInputs.lean ====
/-
  The precondition says every entry of every input is a real number: four conjuncts, one per input, each the
  conjunction over the array of the test |x| < +∞. The layer's equality needs it of the features, the adjacency
  matrix and the weights.
-/
import proofs.«125061_g75393855914012_cont_9to1_m_802_11_alg».proof.Pre_finite_inputs
import proofs.«125061_g75393855914012_cont_9to1_m_802_11_alg».proof.Proof.LibFinite

noncomputable section

namespace Cert.Gcn

open Idealize.ShloMosaic Idealize.ShloMosaic.ValueIdx

variable [Cert.Pre_finite_inputs.Facts]

/-- The printed precondition, all ones, makes the features, the adjacency matrix and the weights finite. -/
theorem finite_of_pre (x0 : FVec Ideal Cert.Pre_finite_inputs.S10000x128 .f32) (x1 : FVec Ideal Cert.Pre_finite_inputs.S10000x10000 .f32)
    (x2 : FVec Ideal Cert.Pre_finite_inputs.S128x128 .f32) (x3 : FVec Ideal Cert.Pre_finite_inputs.S128 .f32)
    (h : Cert.Pre_finite_inputs.fn (F := Ideal) x0 x1 x2 x3 = fun _ => 1#1) :
    Finite x0 ∧ Finite x1 ∧ Finite x2 := by
  have h0 := congrFun h ix0
  dsimp only [Cert.Pre_finite_inputs.fn, Cert.Pre_finite_inputs.fn_part1] at h0
  obtain ⟨h012, -⟩ := IntOp.andi_eq_one.mp h0
  obtain ⟨h01, h2⟩ := IntOp.andi_eq_one.mp h012
  obtain ⟨h0', h1⟩ := IntOp.andi_eq_one.mp h01
  exact ⟨finite_of_all x0 _ _ _ h0', finite_of_all x1 _ _ _ h1, finite_of_all x2 _ _ _ h2⟩

end Cert.Gcn

end
-- ==== Proof.lean ====
/-
  A graph-convolution layer: the kernel computes  max((A · X) · W + b, 0)  one block of 256 adjacency rows at a
  time, the reference  max(A · (X · W) + b, 0)  on the whole arrays (A 10000 × 10000, X 10000 × 128, W 128 × 128,
  b a vector of 128).

  On the extended reals the two are the same function of finite inputs: a matrix product of real entries is
  associative (the one place finiteness is used: distributivity of the product over a finite sum fails at the
  infinities), a row of a product depends on the left factor's row only, and the vector unit's product into a zero
  accumulator and the host's general dot product are one sum. The last of the forty blocks overhangs the array by
  240 rows: what its buffer holds there is not determined, is never written back, and does not reach a row that is.

  The three frames: the word-level program's by a run that leaves the output block's contents unstated; the
  idealized kernel's by the run that names the output array; the reference's by its run with the result dropped.
  The ideal pass rewrote nothing, so the idealization is the program's own text.
-/
import proofs.«125061_g75393855914012_cont_9to1_m_802_11_alg».proof.Defs
import proofs.«125061_g75393855914012_cont_9to1_m_802_11_alg».proof.Proof.Gen.Kernel
import proofs.«125061_g75393855914012_cont_9to1_m_802_11_alg».proof.Proof.Gen.KernelIdeal
import proofs.«125061_g75393855914012_cont_9to1_m_802_11_alg».proof.Proof.Gen.ReferenceIdeal
import proofs.«125061_g75393855914012_cont_9to1_m_802_11_alg».proof.Proof.Gen.Pre_finite_inputs
import proofs.«125061_g75393855914012_cont_9to1_m_802_11_alg».proof.Proof.Gen.ReferenceIdeal.Run
import proofs.«125061_g75393855914012_cont_9to1_m_802_11_alg».proof.Proof.FrameBits
import proofs.«125061_g75393855914012_cont_9to1_m_802_11_alg».proof.Proof.FinalIdeal
import proofs.«125061_g75393855914012_cont_9to1_m_802_11_alg».proof.Proof.RefLayer
import proofs.«125061_g75393855914012_cont_9to1_m_802_11_alg».proof.Proof.FiniteInputs
import Idealize.ShloMosaic.Adequacy
import Idealize.ShloMosaic.Init

noncomputable section

namespace Cert.Proof

open Idealize.ShloMosaic Idealize.ShloMosaic.TcCoe Idealize.SL.Sem

/-- Under the precondition the features, the adjacency matrix and the weights are finite on every core. -/
theorem finite_args (m : (ℓ : Loc Cert.KernelIdeal.nD Cert.KernelIdeal.τ Cert.KernelIdeal.sig) → Buf (Elt Ideal) ℓ)
    (h : Cert.Pre_KernelIdeal m) (c : Dev Cert.KernelIdeal.nD) :
    Cert.Gcn.Finite (m ((c : Thread Cert.KernelIdeal.nD Cert.KernelIdeal.τ).loc Cert.KernelIdeal.main_arg0))
      ∧ Cert.Gcn.Finite (m ((c : Thread Cert.KernelIdeal.nD Cert.KernelIdeal.τ).loc Cert.KernelIdeal.main_arg1))
      ∧ Cert.Gcn.Finite (m ((c : Thread Cert.KernelIdeal.nD Cert.KernelIdeal.τ).loc Cert.KernelIdeal.main_arg2)) :=
  Cert.Gcn.finite_of_pre _ _ _ _ (h c)

theorem frame_kernel : Cert.frame_Kernel := fun m ρ _ => Cert.Kernel.Layer.frame m ρ

theorem frame_ideal : Cert.frame_KernelIdeal := fun m ρ h =>
  (θ_run Cert.KernelIdeal.defs _ _).mono (fun _ hr c => (hr c).2) (Cert.KernelIdeal.Layer.run m ρ (finite_args m h))

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the layer of the arguments, which agree. -/
theorem algebraic : Cert.algebraic_KernelIdeal_ReferenceIdeal := by
  intro m ρ m' ρ' hpre hagree
  refine ⟨fun c => Cert.KernelIdeal.Layer.layerOf m c, Cert.KernelIdeal.Layer.run m ρ (finite_args m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Layer.result_eq, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
